-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x128 : Shape := ⟨3, ![16, 8192, 128]⟩
abbrev S128x128 : Shape := ⟨2, ![128, 128]⟩
abbrev S128 : Shape := ⟨1, ![128]⟩
abbrev S_ : Shape := ⟨0, ![]⟩

class Facts : Prop where
  bcast_S_S16x8192x128 : S_.BroadcastsInDim S16x8192x128 (![] : Fin 0 → Fin S16x8192x128.rank)
  reducesTo_S16x8192x128_S_d0_1_2 : S16x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x8192x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S16x8192x128 .f32 := Host.absf main_arg0
  let main_cst : FVec F S_ .f32 := constant S_ .f32 0x7F800000#32
  let main_v1 : FVec F S16x8192x128 .f32 := broadcastInDim S16x8192x128 ![] bcast_S_S16x8192x128 main_cst
  let main_v2 : IVec S16x8192x128 1 := cmpf .olt main_v0 main_v1
  let main_c : IVec S_ 1 := constantI S_ 1 1#1
  let main_v3 : IVec S_ 1 := (fun x v => Host.reduce IntOp.andi x v reducesTo_S16x8192x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S16x8192x128 : Shape := ⟨3, ![16, 8192, 128]⟩
abbrev S128x128 : Shape := ⟨2, ![128, 128]⟩
abbrev S128 : Shape := ⟨1, ![128]⟩
abbrev S1x8192x128 : Shape := ⟨3, ![1, 8192, 128]⟩
abbrev S8192x128 : Shape := ⟨2, ![8192, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S16x8192x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S1x8192x128, .f32⟩
  | .local _ .vmem, ⟨9, _⟩ => ⟨S1x8192x128, .f32⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S1x8192x128 : S8192x128.ShapeCasts S1x8192x128
  dot_S8192x128_S128x128_S8192x128_1_0_0_1_n_n_wf : DotDims.WF S8192x128 S128x128 S8192x128 [1] [0] [0] [1] [] []
  dot_S8192x128_S8192x128_S128x128_0_0_1_1_n_n_wf : DotDims.WF S8192x128 S8192x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S16x8192x128.size a
  hwx0_0 : ∀ i : grid0.Coords, EltTy.bits .f32 = 32 ∨ (Rect.block (s := S16x8192x128) S1x8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8192x128.size a ≤ S16x8192x128.size a
  hwx0_7 : ∀ i : grid0.Coords, EltTy.bits .f32 = 32 ∨ (Rect.block (s := S16x8192x128) S1x8192x128.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x8192x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x8192x128 : Shape := ⟨3, ![16, 8192, 128]⟩
abbrev S128x128 : Shape := ⟨2, ![128, 128]⟩
abbrev S128 : Shape := ⟨1, ![128]⟩
abbrev S1x1x128 : Shape := ⟨3, ![1, 1, 128]⟩
abbrev S16x128x128 : Shape := ⟨3, ![16, 128, 128]⟩

abbrev nBuf : Space → Nat
  | .hbm => 23
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x8192x128, .f32⟩
  | .hbm, ⟨8, _⟩ => ⟨S1x1x128, .f32⟩
  | .hbm, ⟨9, _⟩ => ⟨S16x8192x128, .f32⟩
  | .hbm, ⟨10, _⟩ => ⟨S16x8192x128, .f32⟩
  | .hbm, ⟨11, _⟩ => ⟨S16x8192x128, .f32⟩
  | .hbm, ⟨12, _⟩ => ⟨S16x8192x128, .f32⟩
  | .hbm, ⟨13, _⟩ => ⟨S1x1x128, .f32⟩
  | .hbm, ⟨14, _⟩ => ⟨S16x8192x128, .f32⟩
  | .hbm, ⟨15, _⟩ => ⟨S16x8192x128, .f32⟩
  | .hbm, ⟨16, _⟩ => ⟨S16x8192x128, .f32⟩
  | .hbm, ⟨17, _⟩ => ⟨S16x8192x128, .f32⟩
  | .hbm, ⟨18, _⟩ => ⟨S1x1x128, .f32⟩
  | .hbm, ⟨19, _⟩ => ⟨S16x8192x128, .f32⟩
  | .hbm, ⟨20, _⟩ => ⟨S16x8192x128, .f32⟩
  | .hbm, ⟨21, _⟩ => ⟨S16x128x128, .f32⟩
  | .hbm, ⟨22, _⟩ => ⟨S16x8192x128, .f32⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x8192x128_0_1_2 : S1x1x128.BroadcastsInDim S16x8192x128 (![0, 1, 2] : Fin 3 → Fin S16x8192x128.rank)
  dot_S16x8192x128_S128x128_S16x8192x128_2_0_01_1_n_n_wf : DotDims.WF S16x8192x128 S128x128 S16x8192x128 [2] [0] [0, 1] [1] [] []
  dot_S16x8192x128_S16x8192x128_S16x128x128_1_1_2_2_0_0_wf : DotDims.WF S16x8192x128 S16x8192x128 S16x128x128 [1] [1] [2] [2] [0] [0]
  dot_S16x8192x128_S16x128x128_S16x8192x128_2_1_1_2_0_0_wf : DotDims.WF S16x8192x128 S16x128x128 S16x8192x128 [2] [1] [1] [2] [0] [0]

variable [Facts₀]

def dot_S16x8192x128_S128x128_S16x8192x128_2_0_01_1_n_n : DotDims S16x8192x128 S128x128 S16x8192x128 where
  lhsContracting := [2]
  rhsContracting := [0]
  lhsNonContracting := [0, 1]
  rhsNonContracting := [1]
  lhsBatch := []
  rhsBatch := []
  wf := dot_S16x8192x128_S128x128_S16x8192x128_2_0_01_1_n_n_wf
def dot_S16x8192x128_S16x8192x128_S16x128x128_1_1_2_2_0_0 : DotDims S16x8192x128 S16x8192x128 S16x128x128 where
  lhsContracting := [1]
  rhsContracting := [1]
  lhsNonContracting := [2]
  rhsNonContracting := [2]
  lhsBatch := [0]
  rhsBatch := [0]
  wf := dot_S16x8192x128_S16x8192x128_S16x128x128_1_1_2_2_0_0_wf
def dot_S16x8192x128_S16x128x128_S16x8192x128_2_1_1_2_0_0 : DotDims S16x8192x128 S16x128x128 S16x8192x128 where
  lhsContracting := [2]
  rhsContracting := [1]
  lhsNonContracting := [1]
  rhsNonContracting := [2]
  lhsBatch := [0]
  rhsBatch := [0]
  wf := dot_S16x8192x128_S16x128x128_S16x8192x128_2_1_1_2_0_0_wf

class Facts : Prop extends Facts₀ where

variable [Facts]
-- ==== Proof.LinAttnSpec.lean ====
/-
  Linear attention over the extended reals, as ONE function of the seven argument arrays.

  For one batch, the sequence slab `X : [8192, 128]` is projected three ways,
      p(W, b)[n, u] = (Σ_f X[n, f] · W[f, u]) + b[u],
  the query and the key projections are exponentiated, the key–value summary contracts the WHOLE sequence,
      kv[u, w] = Σ_n exp(p(Wk, bk)[n, u]) · p(Wv, bv)[n, w],
  and the output row is
      out[n, w] = Σ_u exp(p(Wq, bq)[n, u]) · kv[u, w].
  The result array [16, 8192, 128] is this applied to each of the 16 batch slabs on its own: entry (b, n, w) depends
  on the whole slab `x[b, ·, ·]` (through kv) and on no other batch.

  All sums are finite sums of extended reals, so their order and grouping are immaterial; nothing below distributes a
  product over a sum or cancels anything, so no entry needs to be finite for the two programs to agree.
-/
import Idealize.ShloMosaic.PureOps.Ideal
import Idealize.ShloMosaic.Lib.ValueIdx

noncomputable section

open scoped BigOperators

namespace Cert.LinAttn

open Idealize.ShloMosaic Idealize.ShloMosaic.ValueIdx

/-- A weight matrix [128, 128] and a bias row [128], each a function of its index. -/
abbrev Mat : Type := (⟨2, ![128, 128]⟩ : Shape).Idx → EReal
abbrev Row : Type := (⟨1, ![128]⟩ : Shape).Idx → EReal
/-- The input and the result, [16, 8192, 128], and one batch of either by its two coordinates. -/
abbrev Arr : Type := (⟨3, ![16, 8192, 128]⟩ : Shape).Idx → EReal
abbrev Slab : Type := Fin 8192 → Fin 128 → EReal

/-- Batch `b` of the input: `x[b, ·, ·]`. -/
def slab (x : Arr) (b : Fin 16) : Slab := fun n f => x (ix3 b n f)

/-- One projection with its bias, at sequence position `n` and unit `u`: `(Σ_f X[n, f] · W[f, u]) + b[u]`. -/
def proj (X : Slab) (W : Mat) (b : Row) (n : Fin 8192) (u : Fin 128) : EReal :=
  (∑ f : Fin 128, X n f * W (ix2 f u)) + b (ix1 u)

/-- The key–value summary of one batch: `kv[u, w] = Σ_n exp(k_pre[n, u]) · v[n, w]`, a sum over the whole sequence. -/
def keyValue (X : Slab) (Wk : Mat) (bk : Row) (Wv : Mat) (bv : Row) (u w : Fin 128) : EReal :=
  ∑ n : Fin 8192, Ideal.exp (proj X Wk bk n u) * proj X Wv bv n w

/-- The output of one batch: `out[n, w] = Σ_u exp(q_pre[n, u]) · kv[u, w]`. -/
def attend (X : Slab) (Wq : Mat) (bq : Row) (Wk : Mat) (bk : Row) (Wv : Mat) (bv : Row)
    (n : Fin 8192) (w : Fin 128) : EReal :=
  ∑ u : Fin 128, Ideal.exp (proj X Wq bq n u) * keyValue X Wk bk Wv bv u w

/-- The whole result: each batch attended on its own. -/
def result (x : Arr) (Wq : Mat) (bq : Row) (Wk : Mat) (bk : Row) (Wv : Mat) (bv : Row) : Arr :=
  fun i => attend (slab x (i 0)) Wq bq Wk bk Wv bv (i 1) (i 2)

/-- The result at coordinates `(b, n, w)`. -/
theorem result_apply (x : Arr) (Wq : Mat) (bq : Row) (Wk : Mat) (bk : Row) (Wv : Mat) (bv : Row)
    (b : Fin 16) (n : Fin 8192) (w : Fin 128) :
    result x Wq bq Wk bk Wv bv (ix3 b n w) = attend (slab x b) Wq bq Wk bk Wv bv n w := rfl

end Cert.LinAttn

end
-- ==== Proof.LinAttnReference.lean ====
/-
  The reference program computes the linear-attention function of its arguments.

  Its last operation contracts the unit axis `u` of `exp(q_pre)` against the batched summary `kv`; `kv` contracts the
  sequence axis `n` of `exp(k_pre)` against `v`, batch by batch; and each of `q_pre`, `k_pre`, `v` is a contraction of
  the feature axis `f` of `x` against a weight matrix, plus a bias row spread over batches and positions. Reading each
  stage at an index and naming the indices by their coordinates gives exactly the nested sums of the specification:
  entry (b, n, w) is `Σ_u exp(q_pre[b, n, u]) · Σ_n' exp(k_pre[b, n', u]) · v[b, n', w]`.
-/
import proofs.«144732_j34823594836336_1_alg».proof.Proof.Gen.ReferenceIdeal.Read
import proofs.«144732_j34823594836336_1_alg».proof.Proof.LinAttnSpec

noncomputable section

open scoped BigOperators

namespace Cert.ReferenceIdeal.AttnValue

open Cert.ReferenceIdeal Cert.ReferenceIdeal.Read Cert.LinAttn
open Idealize.ShloMosaic Idealize.ShloMosaic.ValueIdx

variable (x : Arr) (Wq : Mat) (bq : Row) (Wk : Mat) (bk : Row) (Wv : Mat) (bv : Row)

/-! ## The three projections, read at `(b, n, u)` -/

/-- The query pre-activation at `(b, n, u)`: the feature contraction of batch `b`'s row `n` with column `u` of `Wq`, plus `bq[u]`. -/
theorem qpre_apply (b : Fin 16) (n : Fin 8192) (u : Fin 128) :
    val_main_v3 (F := Ideal) x Wq bq (ix3 b n u) = proj (slab x b) Wq bq n u := by
  rw [val_main_v3_apply, val_main_v0_apply, val_main_v2_apply, val_main_v1_apply]
  have el : ∀ k : Fin 128, lidx_main_v0 (ix3 b n u) k = ix3 b n k := fun k => funext fun a => by
    match a with | ⟨0, _⟩ => rfl | ⟨1, _⟩ => rfl | ⟨2, _⟩ => rfl
  have er : ∀ k : Fin 128, ridx_main_v0 (ix3 b n u) k = ix2 k u := fun k => funext fun a => by
    match a with | ⟨0, _⟩ => rfl | ⟨1, _⟩ => rfl
  have eb : idx_main_v1 (idx_main_v2 (ix3 b n u)) = ix1 u := funext fun a => by
    match a with | ⟨0, _⟩ => rfl
  simp only [el, er, eb]
  rfl

/-- The key pre-activation at `(b, n, u)`, likewise with `Wk`, `bk`. -/
theorem kpre_apply (b : Fin 16) (n : Fin 8192) (u : Fin 128) :
    val_main_v8 (F := Ideal) x Wk bk (ix3 b n u) = proj (slab x b) Wk bk n u := by
  rw [val_main_v8_apply, val_main_v5_apply, val_main_v7_apply, val_main_v6_apply]
  have el : ∀ k : Fin 128, lidx_main_v5 (ix3 b n u) k = ix3 b n k := fun k => funext fun a => by
    match a with | ⟨0, _⟩ => rfl | ⟨1, _⟩ => rfl | ⟨2, _⟩ => rfl
  have er : ∀ k : Fin 128, ridx_main_v5 (ix3 b n u) k = ix2 k u := fun k => funext fun a => by
    match a with | ⟨0, _⟩ => rfl | ⟨1, _⟩ => rfl
  have eb : idx_main_v6 (idx_main_v7 (ix3 b n u)) = ix1 u := funext fun a => by
    match a with | ⟨0, _⟩ => rfl
  simp only [el, er, eb]
  rfl

/-- The value projection at `(b, n, w)`, likewise with `Wv`, `bv`. -/
theorem v_apply (b : Fin 16) (n : Fin 8192) (w : Fin 128) :
    val_main_v13 (F := Ideal) x Wv bv (ix3 b n w) = proj (slab x b) Wv bv n w := by
  rw [val_main_v13_apply, val_main_v10_apply, val_main_v12_apply, val_main_v11_apply]
  have el : ∀ k : Fin 128, lidx_main_v10 (ix3 b n w) k = ix3 b n k := fun k => funext fun a => by
    match a with | ⟨0, _⟩ => rfl | ⟨1, _⟩ => rfl | ⟨2, _⟩ => rfl
  have er : ∀ k : Fin 128, ridx_main_v10 (ix3 b n w) k = ix2 k w := fun k => funext fun a => by
    match a with | ⟨0, _⟩ => rfl | ⟨1, _⟩ => rfl
  have eb : idx_main_v11 (idx_main_v12 (ix3 b n w)) = ix1 w := funext fun a => by
    match a with | ⟨0, _⟩ => rfl
  simp only [el, er, eb]
  rfl

/-! ## The key–value summary and the output -/

/-- The batched summary at `(b, u, w)`: the sequence contraction of `exp(k_pre[b, ·, u])` with `v[b, ·, w]`. -/
theorem kv_apply (b : Fin 16) (u w : Fin 128) :
    val_main_v14 (F := Ideal) x Wk bk Wv bv (ix3 b u w) = keyValue (slab x b) Wk bk Wv bv u w := by
  rw [val_main_v14_apply]
  have el : ∀ k : Fin 8192, lidx_main_v14 (ix3 b u w) k = ix3 b k u := fun k => funext fun a => by
    match a with | ⟨0, _⟩ => rfl | ⟨1, _⟩ => rfl | ⟨2, _⟩ => rfl
  have er : ∀ k : Fin 8192, ridx_main_v14 (ix3 b u w) k = ix3 b k w := fun k => funext fun a => by
    match a with | ⟨0, _⟩ => rfl | ⟨1, _⟩ => rfl | ⟨2, _⟩ => rfl
  unfold keyValue
  refine Finset.sum_congr rfl fun k _ => ?_
  rw [el k, er k, val_main_v9_apply, kpre_apply, v_apply, Ideal.hostUnary_exp_def]

/-- The reference's result stage is the linear-attention function of its seven arguments. -/
theorem stage_eq_result :
    val_main_v15 (F := Ideal) x Wq bq Wk bk Wv bv = result x Wq bq Wk bk Wv bv := by
  funext i
  obtain ⟨b, n, w, rfl⟩ : ∃ (b : Fin 16) (n : Fin 8192) (w : Fin 128), i = ix3 b n w := ⟨i 0, i 1, i 2, eq_ix3 i⟩
  rw [val_main_v15_apply, result_apply]
  have el : ∀ k : Fin 128, lidx_main_v15 (ix3 b n w) k = ix3 b n k := fun k => funext fun a => by
    match a with | ⟨0, _⟩ => rfl | ⟨1, _⟩ => rfl | ⟨2, _⟩ => rfl
  have er : ∀ k : Fin 128, ridx_main_v15 (ix3 b n w) k = ix3 b k w := fun k => funext fun a => by
    match a with | ⟨0, _⟩ => rfl | ⟨1, _⟩ => rfl | ⟨2, _⟩ => rfl
  unfold attend
  refine Finset.sum_congr rfl fun k _ => ?_
  rw [el k, er k, val_main_v4_apply, qpre_apply, kv_apply, Ideal.hostUnary_exp_def]

end Cert.ReferenceIdeal.AttnValue

end
-- ==== Proof.LinAttnBody.lean ====
/-
  What the kernel body computes for one grid point, read at one entry of its output block.

  The body sees one batch slab as a block `X : [1, 8192, 128]` and the three weight matrices and bias rows whole. It
  drops the block's unit axis, multiplies the slab by each weight matrix (a product into a zero accumulator is the
  plain sum over the feature axis), adds the bias row spread down the 8192 positions, exponentiates the query and key
  projections, contracts the SEQUENCE axis of `exp(k_pre)` against `v` (a product that contracts axis 0 of both
  operands: entry (u, w) sums over all 8192 positions), multiplies `exp(q_pre)` by that summary, and puts the unit axis
  back. The changes of float format in between are the identity on extended reals. Read at `(0, n, w)` this is the
  specification's `attend` of the slab at `(n, w)`.
-/
import proofs.«144732_j34823594836336_1_alg».proof.Proof.Gen.KernelIdeal.Skeleton
import proofs.«144732_j34823594836336_1_alg».proof.Proof.LinAttnSpec
import Idealize.ShloMosaic.Lib.ValueIdx
import Idealize.ShloMosaic.Lib.ValueLayout
import Idealize.ShloMosaic.PureOps.Ideal.Laws

noncomputable section

open scoped BigOperators

namespace Cert.KernelIdeal.AttnBody

open Cert.KernelIdeal Cert.KernelIdeal.Gen Cert.LinAttn
open Idealize.ShloMosaic Idealize.ShloMosaic.ValueIdx

/-! ## The two matrix products at an index

  The coordinates of each operand's index at output index `i` and contraction position `q`. -/

theorem rows_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem rows_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rows_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rows_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A [8192, 128] × [128, 128] product into the zero accumulator, at `(n, u)`: the sum over the shared axis. -/
theorem rows_apply {φ₁ φ₂ : FTy} (X : FVec Ideal S8192x128 φ₁) (W : FVec Ideal S128x128 φ₂) (n : Fin 8192) (u : Fin 128) :
    matmul dot_S8192x128_S128x128_S8192x128_1_0_0_1_n_n none X W (constant (F := Ideal) S8192x128 .f32 0x00000000#32) (ix2 n u)
      = ∑ f : Fin 128, X (ix2 n f) * W (ix2 f u) := by
  show FloatOps.matmul dot_S8192x128_S128x128_S8192x128_1_0_0_1_n_n none X W (constant (F := Ideal) S8192x128 .f32 0x00000000#32) (ix2 n u) = _
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 n u) ((contrEquiv1 dot_S8192x128_S128x128_S8192x128_1_0_0_1_n_n 128 rfl rfl).symm k) = ix2 n k := funext fun a => Fin.ext (by
    match a with
    | ⟨0, _⟩ => exact rows_lhs_0 _ _
    | ⟨1, _⟩ => exact (rows_lhs_1 _ _).trans hk)
  have er : dot_S8192x128_S128x128_S8192x128_1_0_0_1_n_n.rhsIdx (ix2 n u) ((contrEquiv1 dot_S8192x128_S128x128_S8192x128_1_0_0_1_n_n 128 rfl rfl).symm k) = ix2 k u := funext fun a => Fin.ext (by
    match a with
    | ⟨0, _⟩ => exact (rows_rhs_0 _ _).trans hk
    | ⟨1, _⟩ => exact rows_rhs_1 _ _)
  rw [el, er]

theorem seq_lhs_0 (i : S128x128.Idx) (q : dot_S8192x128_S8192x128_S128x128_0_0_1_1_n_n.contr.Idx) :
    (dot_S8192x128_S8192x128_S128x128_0_0_1_1_n_n.lhsIdx i q 0).val = (q ⟨0, by decide⟩).val :=
  dot_S8192x128_S8192x128_S128x128_0_0_1_1_n_n.lhsIdx_val_of_single rfl i q
theorem seq_lhs_1 (i : S128x128.Idx) (q : dot_S8192x128_S8192x128_S128x128_0_0_1_1_n_n.contr.Idx) :
    (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl
theorem seq_rhs_0 (i : S128x128.Idx) (q : dot_S8192x128_S8192x128_S128x128_0_0_1_1_n_n.contr.Idx) :
    (dot_S8192x128_S8192x128_S128x128_0_0_1_1_n_n.rhsIdx i q 0).val = (q ⟨0, by decide⟩).val :=
  dot_S8192x128_S8192x128_S128x128_0_0_1_1_n_n.rhsIdx_val_of_single rfl i q
theorem seq_rhs_1 (i : S128x128.Idx) (q : dot_S8192x128_S8192x128_S128x128_0_0_1_1_n_n.contr.Idx) :
    (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

/-- A product contracting axis 0 of two [8192, 128] operands into the zero accumulator, at `(u, w)`: the sum over the
    8192 sequence positions of the left operand's column `u` times the right operand's column `w`. -/
theorem seq_apply {φ₁ φ₂ : FTy} (K : FVec Ideal S8192x128 φ₁) (V : FVec Ideal S8192x128 φ₂) (u w : Fin 128) :
    matmul dot_S8192x128_S8192x128_S128x128_0_0_1_1_n_n none K V (constant (F := Ideal) S128x128 .f32 0x00000000#32) (ix2 u w)
      = ∑ n : Fin 8192, K (ix2 n u) * V (ix2 n w) := by
  show FloatOps.matmul dot_S8192x128_S8192x128_S128x128_0_0_1_1_n_n none K V (constant (F := Ideal) S128x128 .f32 0x00000000#32) (ix2 u w) = _
  rw [Ideal.matmul_constant_zero_apply, ← Equiv.sum_comp (contrEquiv1 dot_S8192x128_S8192x128_S128x128_0_0_1_1_n_n 8192 rfl rfl).symm]
  refine Finset.sum_congr rfl fun k _ => ?_
  have hk := contrEquiv1_symm_val dot_S8192x128_S8192x128_S128x128_0_0_1_1_n_n 8192 rfl rfl k
  have el : dot_S8192x128_S8192x128_S128x128_0_0_1_1_n_n.lhsIdx (ix2 u w) ((contrEquiv1 dot_S8192x128_S8192x128_S128x128_0_0_1_1_n_n 8192 rfl rfl).symm k) = ix2 k u := funext fun a => Fin.ext (by
    match a with
    | ⟨0, _⟩ => exact (seq_lhs_0 _ _).trans hk
    | ⟨1, _⟩ => exact seq_lhs_1 _ _)
  have er : dot_S8192x128_S8192x128_S128x128_0_0_1_1_n_n.rhsIdx (ix2 u w) ((contrEquiv1 dot_S8192x128_S8192x128_S128x128_0_0_1_1_n_n 8192 rfl rfl).symm k) = ix2 k w := funext fun a => Fin.ext (by
    match a with
    | ⟨0, _⟩ => exact (seq_rhs_0 _ _).trans hk
    | ⟨1, _⟩ => exact seq_rhs_1 _ _)
  rw [el, er]

/-! ## One projection of the block -/

/-- The slab a block holds, by its two coordinates. -/
def slabOf (X : Vec Ideal S1x8192x128 .f32) : Slab := fun n f => X (ix3 (0 : Fin 1) n f)

/-- One projection as the body writes it: the block without its unit axis times the weight matrix, plus the bias row
    spread over the positions. -/
def projected (X : Vec Ideal S1x8192x128 .f32) (W : Vec Ideal S128x128 .f32) (b : Vec Ideal S128 .f32) : FVec Ideal S8192x128 .f32 :=
  addf (matmul dot_S8192x128_S128x128_S8192x128_1_0_0_1_n_n none
      (truncf .bf16 (shapeCast S8192x128 X shapeCasts_S1x8192x128_S8192x128) bitsLt_bf16_f32)
      (truncf .bf16 W bitsLt_bf16_f32) (constant (F := Ideal) S8192x128 .f32 0x00000000#32))
    (broadcastTo S8192x128 (shapeCast S1x128 b shapeCasts_S128_S1x128) broadcasts_S1x128_S8192x128)

/-- At `(n, u)` it is the specification's projection of the block's slab. -/
theorem projected_apply (X : Vec Ideal S1x8192x128 .f32) (W : Vec Ideal S128x128 .f32) (b : Vec Ideal S128 .f32)
    (n : Fin 8192) (u : Fin 128) :
    projected X W b (ix2 n u) = proj (slabOf X) W b n u := by
  unfold projected proj slabOf
  rw [addf_apply, rows_apply, broadcastTo_1b_ab_apply, shapeCast_a_1a_apply]
  refine congrArg (· + b (ix1 u)) (Finset.sum_congr rfl fun f _ => ?_)
  rw [truncf_apply, truncf_apply, shapeCast_1ab_ab_apply]

/-! ## The body's one store -/

/-- The body's payload is the three projections put through the two remaining products. -/
theorem payload_eq (X : Vec Ideal S1x8192x128 .f32) (Wq Wk Wv : Vec Ideal S128x128 .f32) (bq bk bv : Vec Ideal S128 .f32) :
    k0_pay1 (F := Ideal) X Wq Wk Wv bq bk bv
      = shapeCast S1x8192x128
          (matmul dot_S8192x128_S128x128_S8192x128_1_0_0_1_n_n none
            (truncf .bf16 (exp (projected X Wq bq)) bitsLt_bf16_f32)
            (truncf .bf16
              (matmul dot_S8192x128_S8192x128_S128x128_0_0_1_1_n_n none
                (truncf .bf16 (exp (projected X Wk bk)) bitsLt_bf16_f32)
                (truncf .bf16 (projected X Wv bv) bitsLt_bf16_f32)
                (constant (F := Ideal) S128x128 .f32 0x00000000#32))
              bitsLt_bf16_f32)
            (constant (F := Ideal) S8192x128 .f32 0x00000000#32))
          shapeCasts_S8192x128_S1x8192x128 := rfl

/-- The payload at `(0, n, w)` of its block: the specification's output row of the block's slab. -/
theorem payload_apply (X : Vec Ideal S1x8192x128 .f32) (Wq Wk Wv : Vec Ideal S128x128 .f32) (bq bk bv : Vec Ideal S128 .f32)
    (z : Fin 1) (n : Fin 8192) (w : Fin 128) :
    k0_pay1 (F := Ideal) X Wq Wk Wv bq bk bv (ix3 z n w) = attend (slabOf X) Wq bq Wk bk Wv bv n w := by
  rw [payload_eq, shapeCast_ab_1ab_apply, rows_apply]
  unfold attend
  refine Finset.sum_congr rfl fun u _ => ?_
  rw [truncf_apply, truncf_apply, seq_apply]
  unfold keyValue
  refine congrArg₂ (· * ·) ?_ (Finset.sum_congr rfl fun k _ => ?_)
  · show FloatOps.exp (projected X Wq bq (ix2 n u)) = _
    rw [projected_apply, Ideal.exp_def]
  · rw [truncf_apply, truncf_apply]
    show FloatOps.exp (projected X Wk bk (ix2 k u)) * projected X Wv bv (ix2 k w) = _
    rw [projected_apply, projected_apply, Ideal.exp_def]

end Cert.KernelIdeal.AttnBody

end
-- ==== Proof.LinAttnBlocks.lean ====
/-
  From the sixteen blocks to the whole result array.

  The grid has one axis of 16 points, one per batch. At point `t` the input window holds the slab `x[t, ·, ·]` as a
  block [1, 8192, 128] and the output window writes back a block of the same shape to `out[t, ·, ·]`; the three weight
  matrices and the three bias rows are each one block, the same at every point. So what point `t` writes back, read at
  `(0, n, w)`, is the attention output of batch `t` at `(n, w)` — block `t` of the one whole-array function `result` of
  the arguments. Entry `(b, n, w)` of the result array lies in the block of point `b`, so the sixteen blocks cover the
  array, and after the run the array IS `result` of the arguments.
-/
import proofs.«144732_j34823594836336_1_alg».proof.Proof.Gen.KernelIdeal.Value
import proofs.«144732_j34823594836336_1_alg».proof.Proof.LinAttnBody

set_option maxRecDepth 16384

noncomputable section

namespace Cert.KernelIdeal.AttnValue

open Cert.KernelIdeal Cert.KernelIdeal.Gen Cert.LinAttn Cert.KernelIdeal.AttnBody
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The batch a grid point works on: the point's own number. -/
def batch (t : Fin cfg0.N) : Fin 16 := ⟨t.val, Nat.lt_of_lt_of_eq t.isLt (N_0 : cfg0.N = 16)⟩

theorem batch_val (t : Fin cfg0.N) : (batch t).val = t.val := rfl

/-- The printed index maps over the 16 grid points: the two slab windows (the input and the output) are at block
    `(t, 0, 0)`, every weight and bias window at block zero. -/
theorem index_maps : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_2.index t (0 : Fin 1) = 0 ∧ win0_4.index t (0 : Fin 1) = 0 ∧ win0_6.index t (0 : Fin 1) = 0 :=
  (by decide +kernel : ∀ t : Fin grid0.N, _)

/-! ## What each window's block holds at point `t` -/

/-- The input block at point `t` is the slab of batch `t`. -/
theorem x_block (c : Dev nD) (t : Fin cfg0.N) : slabOf (iblk m c 0 t) = slab (V m c main_arg0) (batch t) := by
  obtain ⟨e0, e1, e2, -⟩ := index_maps t
  funext n f
  show V m c main_arg0 (((cfg0.win 0).blk t).view.emb (ix3 (0 : Fin 1) n f)) = V m c main_arg0 (ix3 (batch t) n f)
  refine congrArg _ (funext fun a => Fin.ext ?_)
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 128 + 1 * f.val = f.val; omega

/-- Each weight matrix's block is the whole matrix, at every point. -/
theorem wq_block (c : Dev nD) (t : Fin cfg0.N) : (iblk m c 1 t : Mat) = V m c main_arg1 := by
  obtain ⟨-, -, -, -, -, -, e0, e1, -⟩ := index_maps t
  funext y
  show V m c main_arg1 (((cfg0.win 1).blk t).view.emb y) = V m c main_arg1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem wk_block (c : Dev nD) (t : Fin cfg0.N) : (iblk m c 3 t : Mat) = V m c main_arg3 := by
  obtain ⟨-, -, -, -, -, -, -, -, e0, e1, -⟩ := index_maps t
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem wv_block (c : Dev nD) (t : Fin cfg0.N) : (iblk m c 5 t : Mat) = V m c main_arg5 := by
  obtain ⟨-, -, -, -, -, -, -, -, -, -, e0, e1, -⟩ := index_maps t
  funext y
  show V m c main_arg5 (((cfg0.win 5).blk t).view.emb y) = V m c main_arg5 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Each bias row's block is the whole row, at every point. -/
theorem bq_block (c : Dev nD) (t : Fin cfg0.N) : (iblk m c 2 t : Row) = V m c main_arg2 := by
  obtain ⟨-, -, -, -, -, -, -, -, -, -, -, -, e0, -, -⟩ := index_maps t
  funext y
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega
theorem bk_block (c : Dev nD) (t : Fin cfg0.N) : (iblk m c 4 t : Row) = V m c main_arg4 := by
  obtain ⟨-, -, -, -, -, -, -, -, -, -, -, -, -, e0, -⟩ := index_maps t
  funext y
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; omega
theorem bv_block (c : Dev nD) (t : Fin cfg0.N) : (iblk m c 6 t : Row) = V m c main_arg6 := by
  obtain ⟨-, -, -, -, -, -, -, -, -, -, -, -, -, -, e0⟩ := index_maps t
  funext y
  show V m c main_arg6 (((cfg0.win 6).blk t).view.emb y) = V m c main_arg6 y
  refine congrArg _ (funext fun a => Fin.ext ?_)
  match a with
  | ⟨0, _⟩ => show win0_6.index t (0 : Fin 1) * 128 + 1 * (y 0).val = (y 0).val; omega

/-- Entry `(0, n, w)` of the output block at point `t` is entry `(t, n, w)` of the result array. -/
theorem out_index (t : Fin cfg0.N) (z : Fin 1) (n : Fin 8192) (w : Fin 128) :
    ((cfg0.win 7).blk t).view.emb (ix3 z n w) = ix3 (batch t) n w := by
  obtain ⟨-, -, -, e0, e1, e2, -⟩ := index_maps t
  refine funext fun a => Fin.ext ?_
  match a with
  | ⟨0, _⟩ => show win0_7.index t (0 : Fin 3) * 1 + 1 * z.val = t.val; have hz := z.isLt; omega
  | ⟨1, _⟩ => show win0_7.index t (1 : Fin 3) * 8192 + 1 * n.val = n.val; omega
  | ⟨2, _⟩ => show win0_7.index t (2 : Fin 3) * 128 + 1 * w.val = w.val; omega

/-! ## What point `t` writes back -/

/-- The function of the arguments, as the region finds them, that the result array ends holding. -/
abbrev whole (c : Dev nD) : Arr :=
  result (V m c main_arg0) (V m c main_arg1) (V m c main_arg2) (V m c main_arg3) (V m c main_arg4) (V m c main_arg5) (V m c main_arg6)

/-- Point `t` writes back block `t` of `whole`: the attention output of batch `t`. -/
theorem flushed_eq (c : Dev nD) (t : Fin cfg0.N) :
    (dats m 0 c).flushed 7 t = ((cfg0.win 7).blk t).view.read (Elt Ideal) (whole m c) := by
  rw [Value.flushed7]
  unfold out0_7
  rw [View.canon_unit_zero zero3]
  simp only [View.ld_unit_zero (S := S1x8192x128) zero3, View.ld_unit_zero (S := S128x128) zero2, View.ld_unit_zero (S := S128) zero1]
  funext y
  obtain ⟨z, n, w, rfl⟩ : ∃ (z : Fin 1) (n : Fin 8192) (w : Fin 128), y = ix3 z n w := ⟨y 0, y 1, y 2, eq_ix3 y⟩
  show k0_pay1 (F := Ideal) (iblk m c 0 t) (iblk m c 1 t) (iblk m c 3 t) (iblk m c 5 t) (iblk m c 2 t) (iblk m c 4 t) (iblk m c 6 t) (ix3 z n w)
      = whole m c (((cfg0.win 7).blk t).view.emb (ix3 z n w))
  refine (payload_apply (iblk m c 0 t) (iblk m c 1 t) (iblk m c 3 t) (iblk m c 5 t) (iblk m c 2 t) (iblk m c 4 t) (iblk m c 6 t) z n w).trans ?_
  rw [out_index t z n w]
  show _ = attend (slab (V m c main_arg0) (batch t)) (V m c main_arg1) (V m c main_arg2) (V m c main_arg3) (V m c main_arg4) (V m c main_arg5) (V m c main_arg6) n w
  rw [x_block m c t, wq_block m c t, wk_block m c t, wv_block m c t, bq_block m c t, bk_block m c t, bv_block m c t]

/-! ## The blocks cover the array -/

/-- An index of the result array is in point `t`'s block iff each coordinate is in the block's range on its axis. -/
theorem mem_blk (t : Fin cfg0.N) (i : S16x8192x128.Idx) :
    i ∈ ((cfg0.win 7).blk t).view.set ↔ ∀ a : Fin 3, win0_7.index t a * S1x8192x128.size a ≤ (i a).val ∧ (i a).val < win0_7.index t a * S1x8192x128.size a + S1x8192x128.size a := by
  show i ∈ ((View.whole main_v0).slice (win0_7.rect t)).set ↔ _
  rw [View.set_slice_whole, Rect.mem_set_unit]
  exact Iff.rfl

/-- Entry `(b, n, w)` lies in the block of point `b`. -/
theorem cover (i : S16x8192x128.Idx) :
    ∃ t : Fin cfg0.N, (cfg0.win 7).flush t = true ∧ i ∈ ((cfg0.win 7).blk t).view.set := by
  have hi0 : (i 0).val < 16 := (i 0).isLt
  have hi1 : (i 1).val < 8192 := (i 1).isLt
  have hi2 : (i 2).val < 128 := (i 2).isLt
  have hN : (i 0).val < cfg0.N := by rw [show cfg0.N = 16 from N_0]; exact hi0
  obtain ⟨-, -, -, e0, e1, e2, -⟩ := index_maps ⟨(i 0).val, hN⟩
  have e0' : win0_7.index ⟨(i 0).val, hN⟩ (0 : Fin 3) = (i 0).val := e0
  refine ⟨⟨(i 0).val, hN⟩, flush0_7 _, ?_⟩
  rw [mem_blk]
  intro a
  match a with
  | ⟨0, _⟩ => show win0_7.index ⟨(i 0).val, hN⟩ (0 : Fin 3) * 1 ≤ (i 0).val ∧ (i 0).val < win0_7.index ⟨(i 0).val, hN⟩ (0 : Fin 3) * 1 + 1; omega
  | ⟨1, _⟩ => show win0_7.index ⟨(i 0).val, hN⟩ (1 : Fin 3) * 8192 ≤ (i 1).val ∧ (i 1).val < win0_7.index ⟨(i 0).val, hN⟩ (1 : Fin 3) * 8192 + 8192; omega
  | ⟨2, _⟩ => show win0_7.index ⟨(i 0).val, hN⟩ (2 : Fin 3) * 128 ≤ (i 2).val ∧ (i 2).val < win0_7.index ⟨(i 0).val, hN⟩ (2 : Fin 3) * 128 + 128; omega

/-! ## The array after the run, and the run -/

/-- After the run the result array is the linear-attention function of the argument arrays as launched. -/
theorem final (c : Dev nD) : (dats m 0 c).arrAt 7 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 (whole m c) (fun t _ => flushed_eq m c t) cover

/-- Every weakly fair execution of the idealized kernel terminates with the result array at `result` of the arguments and
    the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.AttnValue

end
-- ==== Proof.lean ====
/-
  Linear attention computed batch by batch in one fused kernel, against the same function written as three einsums.

  Both programs, read over the extended reals, compute for every batch `b`, position `n` and output unit `w`
      out[b, n, w] = Σ_u exp(q_pre[b, n, u]) · ( Σ_n' exp(k_pre[b, n', u]) · v[b, n', w] ),
  where `q_pre`, `k_pre` and `v` are the feature contractions of `x[b, n, ·]` with `Wq`, `Wk`, `Wv` plus the bias rows
  (LinAttnSpec). The reference does it with three contractions over the whole [16, 8192, 128] array (LinAttnReference). The
  kernel runs once per batch on the slab `x[b, ·, ·]`: its matrix products accumulate into zero, so each is the plain
  sum over its contracted axis; its changes of float format are the identity on extended reals; and its `exp` is the
  reference's (LinAttnBody). The sixteen output blocks tile the result array (LinAttnBlocks). The two sides are the same
  nested sums term by term — no product is distributed over a sum and nothing is cancelled — so the equality holds for
  all extended-real inputs and the finiteness of the inputs is never used.

  The three frames: the kernel's and the idealized kernel's are the generated frame proofs; the reference has no kernel
  launch, and its frame is its run with the result dropped. The idealization rewrote no operation, so there is nothing
  to preserve beyond the program text itself.
-/
import proofs.«144732_j34823594836336_1_alg».proof.Defs
import proofs.«144732_j34823594836336_1_alg».proof.Proof.Gen.Kernel
import proofs.«144732_j34823594836336_1_alg».proof.Proof.Gen.Kernel.Skeleton
import proofs.«144732_j34823594836336_1_alg».proof.Proof.Gen.Kernel.Launch
import proofs.«144732_j34823594836336_1_alg».proof.Proof.Gen.Kernel.Points
import proofs.«144732_j34823594836336_1_alg».proof.Proof.Gen.Kernel.Frame
import proofs.«144732_j34823594836336_1_alg».proof.Proof.Gen.KernelIdeal
import proofs.«144732_j34823594836336_1_alg».proof.Proof.Gen.KernelIdeal.Skeleton
import proofs.«144732_j34823594836336_1_alg».proof.Proof.Gen.KernelIdeal.Launch
import proofs.«144732_j34823594836336_1_alg».proof.Proof.Gen.KernelIdeal.Points
import proofs.«144732_j34823594836336_1_alg».proof.Proof.Gen.KernelIdeal.Frame
import proofs.«144732_j34823594836336_1_alg».proof.Proof.Gen.ReferenceIdeal
import proofs.«144732_j34823594836336_1_alg».proof.Proof.Gen.Pre_finite_inputs
import proofs.«144732_j34823594836336_1_alg».proof.Proof.Gen.KernelIdeal.Value
import proofs.«144732_j34823594836336_1_alg».proof.Proof.Gen.ReferenceIdeal.Run
import proofs.«144732_j34823594836336_1_alg».proof.Proof.Gen.ReferenceIdeal.Read
import proofs.«144732_j34823594836336_1_alg».proof.Proof.LinAttnSpec
import proofs.«144732_j34823594836336_1_alg».proof.Proof.LinAttnReference
import proofs.«144732_j34823594836336_1_alg».proof.Proof.LinAttnBody
import proofs.«144732_j34823594836336_1_alg».proof.Proof.LinAttnBlocks
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the seven arguments, the kernel's result array and the reference's are both the
    linear-attention function of those arguments. -/
theorem algebraic : Cert.algebraic_KernelIdeal_ReferenceIdeal := by
  intro m ρ m' ρ' _ hagree
  refine ⟨fun c => Cert.LinAttn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v15_eq, Cert.ReferenceIdeal.AttnValue.stage_eq_result, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
